-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S32000x4096 : S_.BroadcastsInDim S32000x4096 (![] : Fin 0 → Fin S32000x4096.rank)
  reducesTo_S32000x4096_S_d0_1 : S32000x4096.ReducesTo [0, 1] S_

variable [Facts]

def fn {F : FTy → Type} [FloatOps F] (main_arg0 : FVec F S2x2048x4096 .f32) (main_arg1 : FVec F S4096 .f32) (main_arg2 : FVec F S32000x4096 .f32) (main_arg3 : IVec S2x2048 32) (main_arg4 : IVec S2x2048 32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  main_v13
-- ==== Kernel.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S2x2047x4096 : Shape := ⟨3, ![2, 2047, 4096]⟩
abbrev S4094x4096 : Shape := ⟨2, ![4094, 4096]⟩
abbrev S4094x32000 : Shape := ⟨2, ![4094, 32000]⟩
abbrev S256x4096 : Shape := ⟨2, ![256, 4096]⟩
abbrev S1280x4096 : Shape := ⟨2, ![1280, 4096]⟩
abbrev S256x1280 : Shape := ⟨2, ![256, 1280]⟩
abbrev S256 : Shape := ⟨1, ![256]⟩
abbrev S256x1 : Shape := ⟨2, ![256, 1]⟩
abbrev S1x4096 : Shape := ⟨2, ![1, 4096]⟩
abbrev S2x2047 : Shape := ⟨2, ![2, 2047]⟩
abbrev S4094 : Shape := ⟨1, ![4094]⟩

abbrev nBuf : Space → Nat
  | .hbm => 11
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S32000x4096, .f32⟩
  | .hbm, ⟨3, _⟩ => ⟨S2x2048, .i32⟩
  | .hbm, ⟨4, _⟩ => ⟨S2x2048, .i32⟩
  | .hbm, ⟨5, _⟩ => ⟨S2x2047x4096, .f32⟩
  | .hbm, ⟨6, _⟩ => ⟨S4094x4096, .f32⟩
  | .hbm, ⟨7, _⟩ => ⟨S32000x4096, .bf16⟩
  | .hbm, ⟨8, _⟩ => ⟨S4094x32000, .f32⟩
  | .hbm, ⟨9, _⟩ => ⟨S2x2047, .i32⟩
  | .hbm, ⟨10, _⟩ => ⟨S4094, .i32⟩
  | .local _ .vmem, ⟨0, _⟩ => ⟨S256x4096, .f32⟩
  | .local _ .vmem, ⟨1, _⟩ => ⟨S256x4096, .f32⟩
  | .local _ .vmem, ⟨2, _⟩ => ⟨S1280x4096, .bf16⟩
  | .local _ .vmem, ⟨3, _⟩ => ⟨S1280x4096, .bf16⟩
  | .local _ .vmem, ⟨4, _⟩ => ⟨S4096, .f32⟩
  | .local _ .vmem, ⟨5, _⟩ => ⟨S256x1280, .f32⟩
  | .local _ .vmem, ⟨6, _⟩ => ⟨S256x1280, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![25, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x2048x4096_S2x2047x4096_0_0_0 : S2x2048x4096.Slices ![0, 0, 0] S2x2047x4096
  shapeCasts_S2x2047x4096_S4094x4096 : S2x2047x4096.ShapeCasts S4094x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096_S4096_0 : ∀ a, (![0] : Fin 1 → Nat) a + S4096.size a ≤ S4096.size a
  h_S4096 : 0 < S4096.numel
  reduces_S256x4096_S256 : S256x4096.Reduces [1] S256
  shapeCasts_S256_S256x1 : S256.ShapeCasts S256x1
  broadcasts_S256x1_S256x4096 : S256x1.Broadcasts S256x4096
  shapeCasts_S4096_S1x4096 : S4096.ShapeCasts S1x4096
  broadcasts_S1x4096_S256x4096 : S1x4096.Broadcasts S256x4096
  inb_S1280x4096_S1280x4096_0_0 : ∀ a, (![0, 0] : Fin 2 → Nat) a + S1280x4096.size a ≤ S1280x4096.size a
  h_S1280x4096 : 0 < S1280x4096.numel
  shapeCasts_S1280x4096_S1280x4096 : S1280x4096.ShapeCasts S1280x4096
  inb_S256x1280_S256x1280_0_0 : ∀ a, (![0, 0] : Fin 2 → Nat) a + S256x1280.size a ≤ S256x1280.size a
  h_S256x1280 : 0 < S256x1280.numel
  slices_S2x2048_S2x2047_0_1 : S2x2048.Slices ![0, 1] S2x2047
  shapeCasts_S2x2047_S4094 : S2x2047.ShapeCasts S4094
  dot_S256x4096_S1280x4096_S256x1280_1_1_0_0_n_n_wf : DotDims.WF S256x4096 S1280x4096 S256x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x4096.size a < S4094x4096.size a
  hwx0_0 : ∀ i : grid0.Coords, EltTy.bits .f32 = 32 ∨ (Rect.unit (s := S4094x4096) (fun a => cc0_transform_0 i a * S256x4096.size a) (fun a => (Pipeline.Clip.of (cc0_transform_0 i a) (S256x4096.size a) (S4094x4096.size a)).extent (S256x4096.size a)) fun a => Pipeline.Clip.inb (Pipeline.Clip.ok_of (hstart0_0 i a))).WholeWords (EltTy.packing .f32)
  hwxs0_0 : ∀ i : grid0.Coords, EltTy.bits .f32 = 32 ∨ (Rect.unit (s := S256x4096) (fun _ => 0) (fun a => (Pipeline.Clip.of (cc0_transform_0 i a) (S256x4096.size a) (S4094x4096.size a)).extent (S256x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x4096.size a ≤ S32000x4096.size a
  hwx0_1 : ∀ i : grid0.Coords, EltTy.bits .bf16 = 32 ∨ (Rect.block (s := S32000x4096) S1280x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x1280.size a < S4094x32000.size a
  hwx0_3 : ∀ i : grid0.Coords, EltTy.bits .f32 = 32 ∨ (Rect.unit (s := S4094x32000) (fun a => cc0_transform_3 i a * S256x1280.size a) (fun a => (Pipeline.Clip.of (cc0_transform_3 i a) (S256x1280.size a) (S4094x32000.size a)).extent (S256x1280.size a)) fun a => Pipeline.Clip.inb (Pipeline.Clip.ok_of (hstart0_3 i a))).WholeWords (EltTy.packing .f32)
  hwxs0_3 : ∀ i : grid0.Coords, EltTy.bits .f32 = 32 ∨ (Rect.unit (s := S256x1280) (fun _ => 0) (fun a => (Pipeline.Clip.of (cc0_transform_3 i a) (S256x1280.size a) (S4094x32000.size a)).extent (S256x1280.size a)) fun a => (Nat.zero_add _).trans_le (Pipeline.Clip.extent_le (Pipeline.Clip.ok_of (hstart0_3 i a)))).WholeWords (EltTy.packing .f32)

variable [Facts₀]

def dot_S256x4096_S1280x4096_S256x1280_1_1_0_0_n_n : DotDims S256x4096 S1280x4096 S256x1280 where
  lhsContracting := [1]
  rhsContracting := [1]
  lhsNonContracting := [0]
  rhsNonContracting := [0]
  lhsBatch := []
  rhsBatch := []
  wf := dot_S256x4096_S1280x4096_S256x1280_1_1_0_0_n_n_wf

abbrev win0_0 : Pipeline.Window sig grid0 :=
  Pipeline.Window.ofSpecClip (Memref.whole main_v1) S256x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v2) S1280x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v3) S256x1280.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S4096 : Shape := ⟨1, ![4096]⟩
abbrev S32000x4096 : Shape := ⟨2, ![32000, 4096]⟩
abbrev S2x2048 : Shape := ⟨2, ![2, 2048]⟩
abbrev S_ : Shape := ⟨0, ![]⟩
abbrev S2x2048x1 : Shape := ⟨3, ![2, 2048, 1]⟩
abbrev S1x1x4096 : Shape := ⟨3, ![1, 1, 4096]⟩
abbrev S2x2048x32000 : Shape := ⟨3, ![2, 2048, 32000]⟩
abbrev S2x2047x32000 : Shape := ⟨3, ![2, 2047, 32000]⟩
abbrev S4094x32000 : Shape := ⟨2, ![4094, 32000]⟩
abbrev S2x2047 : Shape := ⟨2, ![2, 2047]⟩
abbrev S4094 : Shape := ⟨1, ![4094]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S4096, .f32⟩
  | .hbm, ⟨2, _⟩ => ⟨S32000x4096, .f32⟩
  | .hbm, ⟨3, _⟩ => ⟨S2x2048, .i32⟩
  | .hbm, ⟨4, _⟩ => ⟨S2x2048, .i32⟩
  | .hbm, ⟨5, _⟩ => ⟨S2x2048x4096, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x4096, .f32⟩
  | .hbm, ⟨17, _⟩ => ⟨S2x2048x4096, .f32⟩
  | .hbm, ⟨18, _⟩ => ⟨S1x1x4096, .f32⟩
  | .hbm, ⟨19, _⟩ => ⟨S2x2048x4096, .f32⟩
  | .hbm, ⟨20, _⟩ => ⟨S2x2048x4096, .f32⟩
  | .hbm, ⟨21, _⟩ => ⟨S2x2048x32000, .f32⟩
  | .hbm, ⟨22, _⟩ => ⟨S2x2047x32000, .f32⟩
  | .hbm, ⟨23, _⟩ => ⟨S4094x32000, .f32⟩
  | .hbm, ⟨24, _⟩ => ⟨S2x2047, .i32⟩
  | .hbm, ⟨25, _⟩ => ⟨S4094, .i32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  reducesTo_S2x2048x4096_S2x2048_d2 : S2x2048x4096.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x4096_0_1_2 : S2x2048x1.BroadcastsInDim S2x2048x4096 (![0, 1, 2] : Fin 3 → Fin S2x2048x4096.rank)
  bcast_S4096_S1x1x4096_2 : S4096.BroadcastsInDim S1x1x4096 (![2] : Fin 1 → Fin S1x1x4096.rank)
  bcast_S1x1x4096_S2x2048x4096_0_1_2 : S1x1x4096.BroadcastsInDim S2x2048x4096 (![0, 1, 2] : Fin 3 → Fin S2x2048x4096.rank)
  slices_S2x2048x32000_S2x2047x32000_0_0_0 : S2x2048x32000.Slices ![0, 0, 0] S2x2047x32000
  shapeCasts_S2x2047x32000_S4094x32000 : S2x2047x32000.ShapeCasts S4094x32000
  slices_S2x2048_S2x2047_0_1 : S2x2048.Slices ![0, 1] S2x2047
  shapeCasts_S2x2047_S4094 : S2x2047.ShapeCasts S4094
  dot_S2x2048x4096_S32000x4096_S2x2048x32000_2_1_01_0_n_n_wf : DotDims.WF S2x2048x4096 S32000x4096 S2x2048x32000 [2] [1] [0, 1] [0] [] []

variable [Facts₀]

def dot_S2x2048x4096_S32000x4096_S2x2048x32000_2_1_01_0_n_n : DotDims S2x2048x4096 S32000x4096 S2x2048x32000 where
  lhsContracting := [2]
  rhsContracting := [1]
  lhsNonContracting := [0, 1]
  rhsNonContracting := [0]
  lhsBatch := []
  rhsBatch := []
  wf := dot_S2x2048x4096_S32000x4096_S2x2048x32000_2_1_01_0_n_n_wf

class Facts : Prop extends Facts₀ where

variable [Facts]
-- ==== Proof.BodyBits.lean ====
/-
  The kernel body and the run of the pipeline around it.

  At every grid point (j, i) the body reads an activation block (256 rows of 4096), a block of 1280 vocabulary rows
  and the norm weight, and stores a 256 x 1280 block of logits. The last activation block of each sweep has only
  254 rows inside the array (4094 = 15 * 256 + 254): the other two rows of its staging buffer hold words nothing
  names, and the write-back of the matching result block writes 254 rows only.
-/
import proofs.«124126_j42468636623331_2_alg».proof.Proof.Gen.Kernel.Frame
import proofs.«124126_j42468636623331_2_alg».proof.Proof.Gen.Kernel.Skeleton
import Idealize.ShloMosaic.Lib.Pipeline.FrameBody
import Idealize.ShloMosaic.Lib.Pipeline.FrameSuffix
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store span a whole staging buffer -/

abbrev rH : Rect S256x4096 := Rect.unit (s := S256x4096) ![0, 0] S256x4096.size inb_S256x4096_S256x4096_0_0
abbrev rW : Rect S1280x4096 := Rect.unit (s := S1280x4096) ![0, 0] S1280x4096.size inb_S1280x4096_S1280x4096_0_0
abbrev rG : Rect S4096 := Rect.unit (s := S4096) ![0] S4096.size inb_S4096_S4096_0
abbrev rO : Rect S256x1280 := Rect.unit (s := S256x1280) ![0, 0] S256x1280.size inb_S256x1280_S256x1280_0_0

/-- What the result's staging buffer holds after the body, from what the three input buffers hold: the one store,
    of the block of logits. -/
def outBlk (xh : Vec F S256x4096 .f32) (xw : Vec F S1280x4096 .bf16) (xg : Vec F S4096 .f32) : Vec F S256x1280 .f32 :=
  View.canon [⟨rO, k0_pay1 (View.ld xh rH) (View.ld xg rG) (View.ld xw rW)⟩]

/-- The store spans the buffer. -/
theorem coverO (p0 : Vec F S256x1280 .f32) (y : S256x1280.Idx) :
    ∃ pc ∈ ([⟨rO, p0⟩] : List (View.Piece (Elt F) S256x1280 .f32)), y ∈ pc.1.set :=
  View.cover_of_tiled [⟨rO, p0⟩] S256x1280.size (by rfl) y

/-! ## The body's triple -/

set_option maxHeartbeats 1000000 in
/-- The body on whole staging memrefs, the inputs' at contents `xh`, `xw`, `xg` and the result's at anything, runs
    to the continuation holding the inputs' as they were and the result's at `outBlk` of them. -/
theorem sound_kernel (c : Dev nD) (E : Set ℕ) (i : grid0.Coords)
    (arg2 : Memref sig .tc .vmem S256x4096 .f32) (harg2 : arg2.IsWhole) (arg3 : Memref sig .tc .vmem S1280x4096 .bf16) (harg3 : arg3.IsWhole)
    (arg4 : Memref sig .tc .vmem S4096 .f32) (harg4 : arg4.IsWhole) (arg5 : Memref sig .tc .vmem S256x1280 .f32) (harg5 : arg5.IsWhole)
    (xh : Vec F S256x4096 .f32) (xw : Vec F S1280x4096 .bf16) (xg : Vec F S4096 .f32) (K : PUnit → sProp 𝕄) :
    iprop(owns (c : Thread nD τ) arg2 fullShare xh ∗ owns (c : Thread nD τ) arg3 fullShare xw ∗ owns (c : Thread nD τ) arg4 fullShare xg
        ∗ (∃ d, owns (c : Thread nD τ) arg5 fullShare d)
        ∗ (iprop(owns (c : Thread nD τ) arg2 fullShare xh ∗ owns (c : Thread nD τ) arg3 fullShare xw ∗ owns (c : Thread nD τ) arg4 fullShare xg
              ∗ owns (c : Thread nD τ) arg5 fullShare (outBlk xh xw xg)) -∗ K ⟨⟩))
      ⊢ wp frame (wpE (defs₀ (F := F)) Variants.none c none) E (cc0__rmsnorm_matmul_kernel i arg2 harg2 arg3 harg3 arg4 harg4 arg5 harg5) K := by
  simp only [cc0__rmsnorm_matmul_kernel_eq_skeleton]; unfold cc0__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The activation block at point `t`, its rows past the array's end filled with the zero word: what the value of the
    result block is stated over (the rows inside the array do not depend on the filling). -/
def hblk (c : Dev nD) (t : Fin cfg0.N) : Vec F S256x4096 .f32 :=
  win0_0.fill (grid0.coords t) (fun _ => Scalar.ofBits .f32 0#32) (iblk m c 0 t)

/-- The proof data of the pipeline on core `c`: the arrays as the region finds them; after the body at point `t` the
    activation buffer at its block (filled out), the vocabulary and norm-weight buffers at their blocks, the result's
    at the block of logits computed from those. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => iblk m c 1 t
    | ⟨2, _⟩ => iblk m c 2 t
    | ⟨3, _⟩ => outBlk (hblk m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = hblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (hblk m c t) (iblk m c 1 t) (iblk m c 2 t) := by dsimp only [dats]

/-- The activation buffer is fetched at every point: it holds the block on the rows inside the array, anything past. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The vocabulary and norm-weight buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The result's buffer was written back at the point before: it holds anything. -/
theorem before_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The body at a generic point -/

/-- What the body is called with at point `t`: the three input buffers as the pipeline leaves them, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: the inputs unchanged — the activation buffer at its block filled out with some `d` — and the
    result's buffer at the block of logits of exactly those contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare (outBlk (win0_0.fill (grid0.coords t) d (iblk m c 0 t)) (iblk m c 1 t) (iblk m c 2 t))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  iexists d0
  isplitl [H0]; · iexact H0
  isplitl [H1]; · iexact H1
  isplitl [H2]; · iexact H2
  iexact H3

/-! ## The frame: nothing is claimed of the result block, so its window is forgotten -/

/-- The result's window (3): what the body leaves there is not named here. -/
def forgets : Fin 4 → Bool := fun w => w.val == 3

/-- What the forgetting obligation asks back: the activation buffer at its block on the rows inside the array (whatever
    fills the rest), the other two inputs at their blocks, the result's at anything. -/
def bodyPostForget (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body_forget (c : Dev nD) (t : Fin cfg0.N) :
    bodyPre m c t ⊢ wp frame (wpE (defs₀ (F := F)) Variants.none c none) Set.univ (bodyAt0 t) (fun _ => bodyPostForget m c t) := by
  refine (sound_body m c t).trans (wp_mono _ _ _ fun _ => ?_)
  unfold bodyPost bodyPostForget
  rw [after_0, after_1, after_2]
  unfold hblk
  rw [win0_0.cut_fill]
  iintro ⟨HΦ, Ho, ⟨%d0, H0, H1, H2, H3⟩⟩
  isplitl [HΦ]; · iexact HΦ
  isplitl [Ho]; · iexact Ho
  isplitl [H0]; · iexists d0; iexact H0
  isplitl [H1]; · iexact H1
  isplitl [H2]; · iexact H2
  iexists _; iexact H3

/-- The body obligation with the result's window forgotten (no point is idle; windows 0 and 3 are the clipped ones). -/
theorem body_obligation_forget (c : Dev nD) :
    BodyObligationLoose (dats (F := F) m 0 c) (defs₀ (F := F)) Variants.none () Set.univ forgets := fun t => by
  rw [bigSep_W0, bigSep_W0]
  exact sound_body_forget m c t

/-- The buffers the host lines after the region write. -/
def tailWrites : Finset (Ref sig .tc) := {main_v4, main_v5}

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, StableHlo.reshape_writes, Finset.mem_singleton] at hb
    obtain rfl := Proc.devRef_injective (τ := τ) _ hb
    simp [tailWrites]

set_option backward.isDefEq.respectTransparency.types false in
/-- Every weakly fair execution of @main terminates, with every input array of the pipeline as the region found it,
    nothing stated of the result array, and every other buffer the later host lines do not write unchanged. -/
theorem run_forget : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation_forget m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: every weakly fair execution of @main terminates, nothing faults, and the five argument arrays end as
    launched — the norm weight is an input of the pipeline, the other four no window's array and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
     (Eq.mp (congrFun (((dats m 0 c).toRForget forgets).ArrAt_in 2 rfl _) _) ((h c).1 2)).trans ((A_eq m c 2).trans (V_main_arg1 m c)),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c)⟩)
    (run_forget m ρ)

end Cert.Kernel.Body

end
-- ==== Proof.Body.lean ====
/-
  The kernel body and the run of the pipeline around it.

  At every grid point (j, i) the body reads an activation block (256 rows of 4096), a block of 1280 vocabulary rows
  and the norm weight, and stores a 256 x 1280 block of logits. The last activation block of each sweep has only
  254 rows inside the array (4094 = 15 * 256 + 254): the other two rows of its staging buffer hold words nothing
  names, and the write-back of the matching result block writes 254 rows only.
-/
import proofs.«124126_j42468636623331_2_alg».proof.Proof.Gen.KernelIdeal.Frame
import proofs.«124126_j42468636623331_2_alg».proof.Proof.Gen.KernelIdeal.Skeleton
import Idealize.ShloMosaic.Lib.Pipeline.FrameBody
import Idealize.ShloMosaic.Lib.Pipeline.FrameSuffix
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses: every load and the one store span a whole staging buffer -/

abbrev rH : Rect S256x4096 := Rect.unit (s := S256x4096) ![0, 0] S256x4096.size inb_S256x4096_S256x4096_0_0
abbrev rW : Rect S1280x4096 := Rect.unit (s := S1280x4096) ![0, 0] S1280x4096.size inb_S1280x4096_S1280x4096_0_0
abbrev rG : Rect S4096 := Rect.unit (s := S4096) ![0] S4096.size inb_S4096_S4096_0
abbrev rO : Rect S256x1280 := Rect.unit (s := S256x1280) ![0, 0] S256x1280.size inb_S256x1280_S256x1280_0_0

/-- What the result's staging buffer holds after the body, from what the three input buffers hold: the one store,
    of the block of logits. -/
def outBlk (xh : Vec F S256x4096 .f32) (xw : Vec F S1280x4096 .bf16) (xg : Vec F S4096 .f32) : Vec F S256x1280 .f32 :=
  View.canon [⟨rO, k0_pay1 (View.ld xh rH) (View.ld xg rG) (View.ld xw rW)⟩]

/-- The store spans the buffer. -/
theorem coverO (p0 : Vec F S256x1280 .f32) (y : S256x1280.Idx) :
    ∃ pc ∈ ([⟨rO, p0⟩] : List (View.Piece (Elt F) S256x1280 .f32)), y ∈ pc.1.set :=
  View.cover_of_tiled [⟨rO, p0⟩] S256x1280.size (by rfl) y

/-! ## The body's triple -/

set_option maxHeartbeats 1000000 in
/-- The body on whole staging memrefs, the inputs' at contents `xh`, `xw`, `xg` and the result's at anything, runs
    to the continuation holding the inputs' as they were and the result's at `outBlk` of them. -/
theorem sound_kernel (c : Dev nD) (E : Set ℕ) (i : grid0.Coords)
    (arg2 : Memref sig .tc .vmem S256x4096 .f32) (harg2 : arg2.IsWhole) (arg3 : Memref sig .tc .vmem S1280x4096 .bf16) (harg3 : arg3.IsWhole)
    (arg4 : Memref sig .tc .vmem S4096 .f32) (harg4 : arg4.IsWhole) (arg5 : Memref sig .tc .vmem S256x1280 .f32) (harg5 : arg5.IsWhole)
    (xh : Vec F S256x4096 .f32) (xw : Vec F S1280x4096 .bf16) (xg : Vec F S4096 .f32) (K : PUnit → sProp 𝕄) :
    iprop(owns (c : Thread nD τ) arg2 fullShare xh ∗ owns (c : Thread nD τ) arg3 fullShare xw ∗ owns (c : Thread nD τ) arg4 fullShare xg
        ∗ (∃ d, owns (c : Thread nD τ) arg5 fullShare d)
        ∗ (iprop(owns (c : Thread nD τ) arg2 fullShare xh ∗ owns (c : Thread nD τ) arg3 fullShare xw ∗ owns (c : Thread nD τ) arg4 fullShare xg
              ∗ owns (c : Thread nD τ) arg5 fullShare (outBlk xh xw xg)) -∗ K ⟨⟩))
      ⊢ wp frame (wpE (defs₀ (F := F)) Variants.none c none) E (cc0__rmsnorm_matmul_kernel i arg2 harg2 arg3 harg3 arg4 harg4 arg5 harg5) K := by
  simp only [cc0__rmsnorm_matmul_kernel_eq_skeleton]; unfold cc0__rmsnorm_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The activation block at point `t`, its rows past the array's end filled with the zero word: what the value of the
    result block is stated over (the rows inside the array do not depend on the filling). -/
def hblk (c : Dev nD) (t : Fin cfg0.N) : Vec F S256x4096 .f32 :=
  win0_0.fill (grid0.coords t) (fun _ => Scalar.ofBits .f32 0#32) (iblk m c 0 t)

/-- The proof data of the pipeline on core `c`: the arrays as the region finds them; after the body at point `t` the
    activation buffer at its block (filled out), the vocabulary and norm-weight buffers at their blocks, the result's
    at the block of logits computed from those. -/
def dats (_ : Fin 1) (c : Dev nD) : Dat τ (Elt F) Unit ℕ (UR sig nD τ) ℕ cfg0 c where
  A w := V m c (Pipeline.arrRef spec0 w)
  after w t := match w with
    | ⟨0, _⟩ => hblk m c t
    | ⟨1, _⟩ => iblk m c 1 t
    | ⟨2, _⟩ => iblk m c 2 t
    | ⟨3, _⟩ => outBlk (hblk m c t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = hblk m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlk (hblk m c t) (iblk m c 1 t) (iblk m c 2 t) := by dsimp only [dats]

/-- The activation buffer is fetched at every point: it holds the block on the rows inside the array, anything past. -/
theorem before_0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
/-- The vocabulary and norm-weight buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
/-- The result's buffer was written back at the point before: it holds anything. -/
theorem before_3 (c : Dev nD) (t : Fin cfg0.N) (d) : (dats m 0 c).before 3 t d = d :=
  (dats m 0 c).before_out_reset 3 rfl t (by
    by_cases h0 : t.val = 0
    · exact .inl h0
    · exact .inr ⟨h0, flush0_3 _⟩) d

/-! ## The body at a generic point -/

/-- What the body is called with at point `t`: the three input buffers as the pipeline leaves them, the result's at anything. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- What it returns: the inputs unchanged — the activation buffer at its block filled out with some `d` — and the
    result's buffer at the block of logits of exactly those contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (iblk m c 0 t))
        ∗ owns (c : Thread nD τ) (st0_1 t) fullShare (iblk m c 1 t)
        ∗ owns (c : Thread nD τ) (st0_2 t) fullShare (iblk m c 2 t)
        ∗ owns (c : Thread nD τ) (st0_3 t) fullShare (outBlk (win0_0.fill (grid0.coords t) d (iblk m c 0 t)) (iblk m c 1 t) (iblk m c 2 t))))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  iexists d0
  isplitl [H0]; · iexact H0
  isplitl [H1]; · iexact H1
  isplitl [H2]; · iexact H2
  iexact H3

/-! ## The frame: nothing is claimed of the result block, so its window is forgotten -/

/-- The result's window (3): what the body leaves there is not named here. -/
def forgets : Fin 4 → Bool := fun w => w.val == 3

/-- What the forgetting obligation asks back: the activation buffer at its block on the rows inside the array (whatever
    fills the rest), the other two inputs at their blocks, the result's at anything. -/
def bodyPostForget (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X))

theorem sound_body_forget (c : Dev nD) (t : Fin cfg0.N) :
    bodyPre m c t ⊢ wp frame (wpE (defs₀ (F := F)) Variants.none c none) Set.univ (bodyAt0 t) (fun _ => bodyPostForget m c t) := by
  refine (sound_body m c t).trans (wp_mono _ _ _ fun _ => ?_)
  unfold bodyPost bodyPostForget
  rw [after_0, after_1, after_2]
  unfold hblk
  rw [win0_0.cut_fill]
  iintro ⟨HΦ, Ho, ⟨%d0, H0, H1, H2, H3⟩⟩
  isplitl [HΦ]; · iexact HΦ
  isplitl [Ho]; · iexact Ho
  isplitl [H0]; · iexists d0; iexact H0
  isplitl [H1]; · iexact H1
  isplitl [H2]; · iexact H2
  iexists _; iexact H3

/-- The body obligation with the result's window forgotten (no point is idle; windows 0 and 3 are the clipped ones). -/
theorem body_obligation_forget (c : Dev nD) :
    BodyObligationLoose (dats (F := F) m 0 c) (defs₀ (F := F)) Variants.none () Set.univ forgets := fun t => by
  rw [bigSep_W0, bigSep_W0]
  exact sound_body_forget m c t

/-- The buffers the host lines after the region write. -/
def tailWrites : Finset (Ref sig .tc) := {main_v4, main_v5}

theorem sfx_writes : ∀ ops ∈ ([hostOps1] : List (List (HloOp τ sig (Elt F)))), ∀ op ∈ ops,
    ∀ b : Ref sig .tc, Proc.devRef .tc b ∈ op.writes → b ∈ tailWrites := by
  intro ops hops op hop
  simp only [List.mem_cons, List.mem_nil_iff, or_false] at hops
  rcases hops with rfl
  simp only [hostOps1, List.mem_cons, List.mem_nil_iff, or_false] at hop
  rcases hop with rfl | rfl
  all_goals
    intro b hb
    simp only [StableHlo.unary_writes, StableHlo.reshape_writes, Finset.mem_singleton] at hb
    obtain rfl := Proc.devRef_injective (τ := τ) _ hb
    simp [tailWrites]

set_option backward.isDefEq.respectTransparency.types false in
/-- Every weakly fair execution of @main terminates, with every input array of the pipeline as the region found it,
    nothing stated of the result array, and every other buffer the later host lines do not write unchanged. -/
theorem run_forget : θ_run defs (onTc (τ := τ) (main (F := F))) (s₀ m ρ)
    (Pipeline.RDat.FramePostR (cfgs 0) (fun c => (dats m 0 c).toRForget forgets) tailWrites (V m)) :=
  Pipeline.RDat.θ_run_frame_around_T cfgs (0 : Fin 1) launch0 defs₀ Variants.none (fun c => (dats m 0 c).toRForget forgets) tailWrites m ρ main
    (hbody := fun c => (body_obligation_forget m c).toRForget)
    (hshare := fun c => ((dats m 0 c).toRForget forgets).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

/-- The frame: every weakly fair execution of @main terminates, nothing faults, and the five argument arrays end as
    launched — the norm weight is an input of the pipeline, the other four no window's array and written by no host line. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), by decide⟩)).trans (V_main_arg0 m c),
     (Eq.mp (congrFun (((dats m 0 c).toRForget forgets).ArrAt_in 2 rfl _) _) ((h c).1 2)).trans ((A_eq m c 2).trans (V_main_arg1 m c)),
     ((h c).2 main_arg2 (Finset.mem_sdiff.mpr ⟨Pipeline.mem_restRefs_of main_arg2 (by decide) (by decide), by decide⟩)).trans (V_main_arg2 m c),
     ((h c).2 main_arg3 (Finset.mem_sdiff.mpr ⟨Pipeline.mem_restRefs_of main_arg3 (by decide) (by decide), by decide⟩)).trans (V_main_arg3 m c),
     ((h c).2 main_arg4 (Finset.mem_sdiff.mpr ⟨Pipeline.mem_restRefs_of main_arg4 (by decide) (by decide), by decide⟩)).trans (V_main_arg4 m c)⟩)
    (run_forget m ρ)

end Cert.KernelIdeal.Body

end
-- ==== Proof.Spec.lean ====
/-
  The function both programs compute, on extended reals.

  A row x of 4096 activations is scaled by the reciprocal root of its mean square plus a small constant,
  `s(x) = (Σₖ xₖ² / 4096 + ε)^(-1/2)`, then weighted entry by entry by the norm weight, and contracted with a
  row w of the vocabulary matrix: `logit(x, g, w) = Σₖ (xₖ · s(x) · gₖ) · wₖ`.
  Result row r of the 4094 rows is position `r % 2047` of batch `r / 2047`: the last position of each batch
  is dropped before (or after) the contraction, which is the same thing row by row.
-/
import Idealize.ShloMosaic.PureOps.Ideal
import Idealize.ShloMosaic.PureOps.Ideal.Laws
import Idealize.ShloMosaic.Lib.ValueIdx

noncomputable section

namespace Cert.Logits

open Idealize.ShloMosaic Idealize.ShloMosaic.ValueIdx
open scoped BigOperators

/-- The row length 4096 and the constant ε, as the extended reals their f32 words denote. -/
def n4096 : EReal := Ideal.ofBits .f32 0x45800000#32
def eps : EReal := Ideal.ofBits .f32 0x358637BD#32

/-- The scale of a row: the reciprocal square root of its mean square plus ε. -/
def rowScale (x : Fin 4096 → EReal) : EReal :=
  Ideal.rsqrt (Ideal.div (∑ k : Fin 4096, x k * x k) n4096 + eps)

/-- One logit: the normalised, weighted row contracted with one vocabulary row. -/
def rowLogit (x g w : Fin 4096 → EReal) : EReal :=
  ∑ k : Fin 4096, x k * rowScale x * g k * w k

/-- The batch and the position of result row `r`: each batch contributes its first 2047 positions. -/
def batchOf (r : Fin 4094) : Fin 2 := ⟨r.val / 2047, by omega⟩
def posOf (r : Fin 4094) : Fin 2048 := ⟨r.val % 2047, by omega⟩

/-- The whole result: entry (r, v) is the logit of activation row (batch r, position r) against vocabulary row v. -/
def logits (h : (⟨3, ![2, 2048, 4096]⟩ : Shape).Idx → EReal) (g : (⟨1, ![4096]⟩ : Shape).Idx → EReal)
    (W : (⟨2, ![32000, 4096]⟩ : Shape).Idx → EReal) : (⟨2, ![4094, 32000]⟩ : Shape).Idx → EReal :=
  fun j => rowLogit (fun k => h (ix3 (batchOf (j 0)) (posOf (j 0)) k)) (fun k => g (ix1 k)) (fun k => W (ix2 (j 1) k))

/-- A logit reads its row only: rows that agree entry by entry give the same logit. -/
theorem rowLogit_congr {x x' : Fin 4096 → EReal} (h : ∀ k, x k = x' k) (g w : Fin 4096 → EReal) :
    rowLogit x g w = rowLogit x' g w := by
  rw [show x = x' from funext h]

end Cert.Logits

end
-- ==== Proof.LibDotReads.lean ====
/- Contractions and two column layouts read at coordinates, on the extended reals, for any extents.
   A matrix product into the zero accumulator, read at (p, c), is one sum over the contraction coordinate k:
   of left(k, p) · right(c, k) when the left operand is contracted on its first axis and the right on its last;
   of left(p, k) · right(c, k) when both are contracted on their last axis. The host's product with the plain
   dimension numbers (rows × contraction by contraction × columns), which has no accumulator, is the sum of
   left(p, k) · right(k, c). A vector of a entries cast to an [a, 1] column reads its entry i at (i, 0), and a
   [1, 1] value broadcast along a row of b entries reads its one entry everywhere. Nothing here depends on a
   particular program: a printed record with the same axis lists is the record used here by `rfl`. -/
import Idealize.ShloMosaic.PureOps.Ideal
import Idealize.ShloMosaic.PureOps.Ideal.Laws
import Idealize.ShloMosaic.Lib.ValueIdx
import Idealize.ShloMosaic.Lib.Pipeline.Value

noncomputable section

open scoped BigOperators

open Idealize.ShloMosaic Idealize.ShloMosaic.ValueIdx

namespace Cert.Lib.DotReads

/-- The dimension numbers of a [K, M] matrix contracted on its FIRST axis with an [N, K] matrix contracted on its
    LAST axis, giving [M, N]: result (p, c) pairs the left operand's column p with the right operand's row c. -/
def firstLast (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

/-- Left contracted on its first axis, right on its last, into the zero accumulator, at (p, c): the sum over k of
    left(k, p) · right(c, k). -/
theorem firstLast_matmul_zero_apply {M K N : ℕ} {φ₁ φ₂ : FTy} (l : FVec Ideal ⟨2, ![K, M]⟩ φ₁) (r : FVec Ideal ⟨2, ![N, K]⟩ φ₂)
    (p : Fin M) (c : Fin N) :
    FloatOps.matmul (firstLast M K N) none l r (constant (F := Ideal) ⟨2, ![M, N]⟩ .f32 0x00000000#32) (ix2 p c)
      = ∑ k : Fin K, l (ix2 k p) * r (ix2 c k) := by
  rw [Ideal.matmul_constant_zero_apply, ← Equiv.sum_comp (contrEquiv1 (firstLast M K N) K rfl rfl).symm]
  refine Finset.sum_congr rfl fun k _ => ?_
  have hk := contrEquiv1_symm_val (firstLast M K N) K rfl rfl k
  have el : (firstLast M K N).lhsIdx (ix2 p c) ((contrEquiv1 (firstLast M K N) K rfl rfl).symm k) = ix2 k p :=
    funext fun a => Fin.ext (by
      match a with
      | ⟨0, _⟩ => exact ((firstLast M K N).lhsIdx_val_of_single rfl _ _).trans hk
      | ⟨1, _⟩ => rfl)
  have er : (firstLast M K N).rhsIdx (ix2 p c) ((contrEquiv1 (firstLast M K N) K rfl rfl).symm k) = ix2 c k :=
    funext fun a => Fin.ext (by
      match a with
      | ⟨0, _⟩ => rfl
      | ⟨1, _⟩ => exact ((firstLast M K N).rhsIdx_val_of_single rfl _ _).trans hk)
  rw [el, er]

/-- Both operands contracted on their last axis, into the zero accumulator, at (p, c): the sum over k of
    left(p, k) · right(c, k). -/
theorem lastLast_matmul_zero_apply {M K N : ℕ} {φ₁ φ₂ : FTy} (l : FVec Ideal ⟨2, ![M, K]⟩ φ₁) (r : FVec Ideal ⟨2, ![N, K]⟩ φ₂)
    (p : Fin M) (c : Fin N) :
    FloatOps.matmul (DotDims.transposedRhs M K N) none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p c) ((contrEquiv1 (DotDims.transposedRhs M K N) K rfl rfl).symm k) = ix2 p k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 p c) ((contrEquiv1 (DotDims.transposedRhs M K N) K rfl rfl).symm k) = ix2 c k :=
    funext fun a => Fin.ext (by
      match a with
      | ⟨0, _⟩ => rfl
      | ⟨1, _⟩ => exact ((DotDims.transposedRhs M K N).rhsIdx_val_of_single rfl _ _).trans hk)
  rw [el, er]

/-- The host's product with the plain dimension numbers, at (p, c): the sum over k of left(p, k) · right(k, c). -/
theorem plain_dotGeneral_apply {M K N : ℕ} {φ₁ φ₂ : FTy} (sched : HostSchedule) (l : FVec Ideal ⟨2, ![M, K]⟩ φ₁)
    (r : FVec Ideal ⟨2, ![K, N]⟩ φ₂) (p : Fin M) (c : Fin N) :
    FloatOps.dotGeneral (DotDims.plain M K N) none sched l r (ix2 p c) = ∑ k : Fin K, l (ix2 p k) * r (ix2 k c) := by
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A vector of a entries cast to an [a, 1] column reads, at (i, u), the vector's entry i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A [1, 1] value broadcast along a row of b entries reads its one entry at every (u, c). -/
theorem broadcastTo_11_1b_apply {α : Type} {b : ℕ} (v : (⟨2, ![1, 1]⟩ : Shape).Idx → α)
    (h : (⟨2, ![1, 1]⟩ : Shape).Broadcasts ⟨2, ![1, b]⟩) (u : Fin 1) (c : Fin b) :
    broadcastTo ⟨2, ![1, b]⟩ v h (ix2 u c) = v (ix2 (0 : Fin 1) (0 : Fin 1)) := by
  refine broadcastTo_apply v h (ix2 u c) (ix2 (0 : Fin 1) (0 : Fin 1)) fun ax => ?_
  match ax with
  | ⟨0, _⟩ => rfl
  | ⟨1, _⟩ => rfl

end Cert.Lib.DotReads

end
-- ==== Proof.LibBroadcastReads.lean ====
/- Small layout reads at coordinates, for any extents and any element type: a column `[a, 1]` broadcast along the lanes
   to `[a, b]` (a vector `broadcast` and a host `broadcast_in_dim` with dims [0, 1]), a row `[1, b]` broadcast down the
   rows by a host `broadcast_in_dim` with dims [0, 1], a vector `[a]` made a column `[a, 1]` (dims [0]) and a vector `[b]`
   made a row `[1, b]` (dims [1]). Each reads the operand at the coordinate that survives; the unit axis reads at 0.
   Nothing here depends on a particular program. -/
import Idealize.ShloMosaic.Lib.Pipeline.Value
import Idealize.ShloMosaic.Lib.ValueIdx

noncomputable section

open Idealize.ShloMosaic Idealize.ShloMosaic.ValueIdx

namespace Cert.Lib.BroadcastReads

variable {α : Type}

/-- A vector broadcast of a column `[a, 1]` to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a column `[a, 1]` to `[a, b]` reads, at `(p, c)`, the column at row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A host broadcast (dims [0, 1]) of a row `[1, b]` to `[a, b]` reads, at `(p, c)`, the row at column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` made a column `[a, 1]` by a host broadcast (dims [0]) reads, at `(p, z)`, the vector at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h v (ix2 p z) = v (ix1 p) := by
  refine broadcastInDim_apply _ h v (ix2 p z) (ix1 p) fun ax => ?_
  match ax with
  | ⟨0, _⟩ =>
    show p.val = if a = 1 then 0 else p.val
    split
    · have := p.isLt; omega
    · rfl

/-- A vector `[b]` made a row `[1, b]` by a host broadcast (dims [1]) reads, at `(z, c)`, the vector at `c`. -/
theorem broadcastInDim_b_1b_apply {b : ℕ} (v : (⟨1, ![b]⟩ : Shape).Idx → α)
    (h : (⟨1, ![b]⟩ : Shape).BroadcastsInDim ⟨2, ![1, b]⟩ ![1]) (z : Fin 1) (c : Fin b) :
    broadcastInDim ⟨2, ![1, b]⟩ ![1] h v (ix2 z c) = v (ix1 c) := by
  refine broadcastInDim_apply _ h v (ix2 z c) (ix1 c) fun ax => ?_
  match ax with
  | ⟨0, _⟩ =>
    show c.val = if b = 1 then 0 else c.val
    split
    · have := c.isLt; omega
    · rfl

end Cert.Lib.BroadcastReads

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Payload.lean ====
/-
  The block of logits the body stores, read at one entry, on extended reals.
-/
import proofs.«124126_j42468636623331_2_alg».proof.Proof.Gen.KernelIdeal.Skeleton
import proofs.«124126_j42468636623331_2_alg».proof.Proof.Spec
import proofs.«124126_j42468636623331_2_alg».proof.Proof.LibDotReads
import proofs.«124126_j42468636623331_2_alg».proof.Proof.LibBroadcastReads
import proofs.«124126_j42468636623331_2_alg».proof.Proof.LibPlainMatmul
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Cert.Logits
open Idealize.ShloMosaic Idealize.ShloMosaic.ValueIdx Idealize.ShloMosaic.TcCoe
open scoped BigOperators

/-- A vector of b entries cast to a [1, b] row reads, at (u, k), the vector's entry k. -/
theorem shapeCast_b_1b_apply {α : Type} {b : ℕ} (x : (⟨1, ![b]⟩ : Shape).Idx → α)
    (h : (⟨1, ![b]⟩ : Shape).ShapeCasts ⟨2, ![1, b]⟩) (u : Fin 1) (k : Fin b) :
    shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-- A [1, b] row broadcast down a rows reads, at (p, k), the row's entry k. -/
theorem broadcastTo_1b_ab_apply {α : Type} {a b : ℕ} (v : (⟨2, ![1, b]⟩ : Shape).Idx → α)
    (h : (⟨2, ![1, b]⟩ : Shape).Broadcasts ⟨2, ![a, b]⟩) (p : Fin a) (k : Fin b) :
    broadcastTo ⟨2, ![a, b]⟩ v h (ix2 p k) = v (ix2 (0 : Fin 1) k) := by
  refine broadcastTo_apply v h (ix2 p k) (ix2 (0 : Fin 1) k) fun ax => ?_
  match ax with
  | ⟨0, _⟩ => rfl
  | ⟨1, _⟩ =>
    show k.val = if b = 1 then 0 else k.val
    split
    · have := k.isLt; omega
    · rfl

/-- The scale column at row p: the reciprocal root of (the row's sum of squares over 4096, plus ε). -/
theorem scale_apply (v0 : Vec Ideal S256x4096 .f32) (p : Fin 256) :
    (rsqrt
      (addf
        (divf
          (shapeCast S256x1
            (multiReduction FKind.add [1] S256
              (mulf (shapeCast S256x4096 v0 shapeCasts_S256x4096_S256x4096) (shapeCast S256x4096 v0 shapeCasts_S256x4096_S256x4096))
              0x00000000#32 reduces_S256x4096_S256 (.inl rfl) rfl)
            shapeCasts_S256_S256x1)
          (broadcast S256x1 (Scalar.ofBits (F := Ideal) .f32 0x45800000#32)))
        (broadcast S256x1 (Scalar.ofBits (F := Ideal) .f32 0x358637BD#32))) : FVec Ideal S256x1 .f32) (ix2 p (0 : Fin 1))
      = rowScale (fun k => v0 (ix2 p k)) := by
  rw [shapeCast_self]
  unfold rowScale n4096 eps
  show Ideal.rsqrt (Ideal.div (shapeCast S256x1 _ shapeCasts_S256_S256x1 (ix2 p (0 : Fin 1))) _ + _) = _
  refine congrArg Ideal.rsqrt (congrArg₂ (· + ·) (congrArg₂ Ideal.div ?_ rfl) rfl)
  refine (Cert.Lib.DotReads.shapeCast_a_a1_apply _ _ p (0 : Fin 1)).trans ?_
  exact Cert.Lib.PlainMatmul.rowSum_apply _ _ _ _ _ p

/-- The block of logits at entry (p, q): the logit of row p of the activation block, with the norm weight, against
    row q of the vocabulary block. It reads the activation block at row p only. -/
theorem pay_apply (v0 : Vec Ideal S256x4096 .f32) (v2 : Vec Ideal S4096 .f32) (v17 : Vec Ideal S1280x4096 .bf16)
    (p : Fin 256) (q : Fin 1280) :
    k0_pay1 (F := Ideal) v0 v2 v17 (ix2 p q)
      = rowLogit (fun k => v0 (ix2 p k)) (fun k => v2 (ix1 k)) (fun k => v17 (ix2 q k)) := by
  unfold k0_pay1
  refine (Cert.Lib.DotReads.lastLast_matmul_zero_apply _ _ p q).trans ?_
  unfold rowLogit
  refine Finset.sum_congr rfl fun k _ => ?_
  show ((shapeCast S256x4096 v0 shapeCasts_S256x4096_S256x4096 (ix2 p k) * broadcastTo S256x4096 _ broadcasts_S256x1_S256x4096 (ix2 p k))
      * broadcastTo S256x4096 (shapeCast S1x4096 v2 shapeCasts_S4096_S1x4096) broadcasts_S1x4096_S256x4096 (ix2 p k))
      * shapeCast S1280x4096 v17 shapeCasts_S1280x4096_S1280x4096 (ix2 q k) = _
  rw [shapeCast_self v17, Cert.Lib.BroadcastReads.broadcastTo_a1_ab_apply, broadcastTo_1b_ab_apply, shapeCast_b_1b_apply,
    scale_apply, shapeCast_self v0]

end Cert.KernelIdeal.Payload

end
-- ==== Proof.Named.lean ====
/-
  The value of the result array, on extended reals.

  Row p of a block of logits is a function of row p of the activation block alone, so on the rows inside the array
  the stored block does not depend on what fills the staging buffer past the array's end: the result block is named
  on those rows, and the blocks written back cover the array.
-/
import proofs.«124126_j42468636623331_2_alg».proof.Proof.Body
import proofs.«124126_j42468636623331_2_alg».proof.Proof.Payload

set_option maxRecDepth 16384

noncomputable section

namespace Cert.KernelIdeal.Named

open Cert.KernelIdeal Cert.KernelIdeal.Gen Cert.KernelIdeal.Body Cert.Logits
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open scoped BigOperators

local notation "𝕄" => MT nD τ sig Unit (Elt Ideal) ℕ (UR sig nD τ) ℕ

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The stored block at entry (p, q): the logit of row p of the activation buffer against row q of the vocabulary buffer. -/
theorem outBlk_apply (xh : Vec Ideal S256x4096 .f32) (xw : Vec Ideal S1280x4096 .bf16) (xg : Vec Ideal S4096 .f32)
    (p : Fin 256) (q : Fin 1280) :
    outBlk (F := Ideal) xh xw xg (ix2 p q)
      = rowLogit (fun k => xh (ix2 p k)) (fun k => xg (ix1 k)) (fun k => xw (ix2 q k)) := by
  unfold outBlk
  rw [View.canon_unit_zero hz2]
  simp only [View.ld_unit_zero (S := S256x4096) hz2, View.ld_unit_zero (S := S1280x4096) hz2, View.ld_unit_zero (S := S4096) hz1]
  exact Cert.KernelIdeal.Payload.pay_apply xh xg xw p q

/-- The clipping, decided over the grid: the activation and result windows are cut alike along the rows, and neither
    is cut along the other axis. -/
theorem clip_facts : ∀ t : Fin cfg0.N,
    win0_3.xsize (grid0.coords t) (0 : Fin 2) = win0_0.xsize (grid0.coords t) (0 : Fin 2)
    ∧ win0_0.xsize (grid0.coords t) (1 : Fin 2) = 4096
    ∧ win0_3.xsize (grid0.coords t) (1 : Fin 2) = 1280 :=
  (by decide +kernel : ∀ t : Fin grid0.N, _)

/-- On a row inside the array the activation buffer holds its block whatever fills the rest. -/
theorem fill_agree (t : Fin cfg0.N) (d d' : S256x4096.Idx → Elt Ideal .f32) (g) (p : Fin 256) (k : Fin 4096)
    (hp : p.val < win0_0.xsize (grid0.coords t) (0 : Fin 2)) :
    win0_0.fill (grid0.coords t) d g (ix2 p k) = win0_0.fill (grid0.coords t) d' g (ix2 p k) := by
  have hm : win0_0.moved (grid0.coords t) (ix2 p k) = true :=
    (win0_0.moved_iff _ _).mpr fun a => by
      match a with
      | ⟨0, _⟩ => exact hp
      | ⟨1, _⟩ => show k.val < win0_0.xsize (grid0.coords t) (1 : Fin 2); rw [(clip_facts t).2.1]; exact k.isLt
  unfold Window.fill; rw [dif_pos hm, dif_pos hm]

/-- On the rows inside the array the stored block does not depend on what fills the activation buffer past the
    array's end: each such row of logits reads that row of the activation buffer only. -/
theorem cut_out_eq (c : Dev nD) (t : Fin cfg0.N) (d0 : S256x4096.Idx → Elt Ideal .f32) :
    win0_3.cut (grid0.coords t) (outBlk (win0_0.fill (grid0.coords t) d0 (iblk m c 0 t)) (iblk m c 1 t) (iblk m c 2 t))
      = win0_3.cut (grid0.coords t) (outBlk (hblk m c t) (iblk m c 1 t) (iblk m c 2 t)) := by
  funext j
  have hj0 : (j 0).val < win0_3.xsize (grid0.coords t) (0 : Fin 2) := (j 0).isLt
  have hj0' : (j 0).val < 256 := lt_of_lt_of_le hj0 (win0_3.xsize_le _ _)
  have hj1' : (j 1).val < 1280 := lt_of_lt_of_le (j 1).isLt (win0_3.xsize_le _ _)
  have e : win0_3.xinj (grid0.coords t) j = ix2 (⟨(j 0).val, hj0'⟩ : Fin 256) (⟨(j 1).val, hj1'⟩ : Fin 1280) :=
    funext fun a => Fin.ext (by match a with | ⟨0, _⟩ => rfl | ⟨1, _⟩ => rfl)
  show outBlk _ _ _ (win0_3.xinj (grid0.coords t) j) = outBlk _ _ _ (win0_3.xinj (grid0.coords t) j)
  rw [e, outBlk_apply, outBlk_apply]
  unfold hblk
  exact rowLogit_congr (fun k => fill_agree t _ _ _ _ k (by rw [← (clip_facts t).1]; exact hj0)) _ _

/-! ## The body obligation with every window named -/

def bodyPreNamed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- The two clipped windows come back named on the part their transfers move, the other two whole. -/
def bodyPostNamed (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t)))))

theorem sound_body_named (c : Dev nD) (t : Fin cfg0.N) :
    bodyPreNamed m c t ⊢ wp frame (wpE (defs₀ (F := Ideal)) Variants.none c none) Set.univ (bodyAt0 t) (fun _ => bodyPostNamed m c t) := by
  refine (show bodyPreNamed m c t ⊢ bodyPre m c t from ?_).trans ((sound_body m c t).trans (wp_mono _ _ _ fun _ => ?_))
  · unfold bodyPreNamed bodyPre
    simp only [before_3]
    iintro ⟨HΦ, Ho, H0, H1, H2, ⟨%d3, H3⟩⟩
    isplitl [HΦ]; · iexact HΦ
    isplitl [Ho]; · iexact Ho
    isplitl [H0]; · iexact H0
    isplitl [H1]; · iexact H1
    isplitl [H2]; · iexact H2
    iexists d3; iexact H3
  · unfold bodyPost bodyPostNamed
    rw [after_0, after_1, after_2, after_3,
      show win0_0.cut (grid0.coords t) (hblk m c t) = iblk m c 0 t from win0_0.cut_fill _ _ _]
    iintro ⟨HΦ, Ho, ⟨%d0, H0, H1, H2, H3⟩⟩
    isplitl [HΦ]; · iexact HΦ
    isplitl [Ho]; · iexact Ho
    isplitl [H0]; · iexists d0; iexact H0
    isplitl [H1]; · iexact H1
    isplitl [H2]; · iexact H2
    iexists (outBlk (win0_0.fill (grid0.coords t) d0 (iblk m c 0 t)) (iblk m c 1 t) (iblk m c 2 t))
    rw [← cut_out_eq m c t d0, win0_3.fill_cut]
    iexact H3

theorem body_obligation (c : Dev nD) :
    BodyObligationLoose (dats (F := Ideal) m 0 c) (defs₀ (F := Ideal)) Variants.none () Set.univ := fun t => by
  rw [bigSep_W0, bigSep_W0]
  exact sound_body_named m c t

/-! ## The run -/

set_option backward.isDefEq.respectTransparency.types false in
/-- Every weakly fair execution of @main terminates with every array of the pipeline at what the write-backs leave and
    every other buffer at what the host lines after the region leave. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := body_obligation m) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.Named

end
-- ==== Proof.Final.lean ====
/-
  The result array after the run is the specification's logits, and the second result the shifted labels.

  Point t = 16 j + i of the grid handles activation rows 256 i .. 256 i + 255 (254 of them when i = 15) against
  vocabulary rows 1280 j .. 1280 j + 1279; the blocks written back cover the 4094 x 32000 result.
-/
import proofs.«124126_j42468636623331_2_alg».proof.Proof.Named
import Idealize.ShloMosaic.Lib.StableHlo.Run

set_option maxRecDepth 16384

noncomputable section

namespace Cert.KernelIdeal.Final

open Cert.KernelIdeal Cert.KernelIdeal.Gen Cert.KernelIdeal.Body Cert.KernelIdeal.Named Cert.Logits
open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat Cfg Window)
open scoped BigOperators

variable (m : (ℓ : Loc nD τ sig) → Buf (Elt Ideal) ℓ) (ρ : Dev nD → PrngReg)

/-! ## The arrays as the region finds them -/

/-- Dropping the last position of each batch and flattening, read at (r, k): position r % 2047 of batch r / 2047. -/
theorem shift_apply {α : Type} (y : S2x2048x4096.Idx → α) (h1 : S2x2048x4096.Slices ![0, 0, 0] S2x2047x4096)
    (h2 : S2x2047x4096.ShapeCasts S4094x4096) (r : Fin 4094) (k : Fin 4096) :
    shapeCast S4094x4096 (extractStridedSlice S2x2047x4096 ![0, 0, 0] y h1) h2 (ix2 r k) = y (ix3 (batchOf r) (posOf r) k) := by
  have hr := r.isLt
  refine (shapeCast_apply _ h2 (ix2 r k) (ix3 (batchOf r) (⟨r.val % 2047, by omega⟩ : Fin 2047) k) (by
    rw [Shape.rowMajor_val_three, Shape.rowMajor_val_two]
    show (r.val / 2047 * 2047 + r.val % 2047) * 4096 + k.val = r.val * 4096 + k.val
    omega)).trans ?_
  exact extractStridedSlice_apply ![0, 0, 0] y h1 _ (ix3 (batchOf r) (posOf r) k) (fun a => match a with
    | ⟨0, _⟩ => by show r.val / 2047 = 0 + r.val / 2047; omega
    | ⟨1, _⟩ => by show r.val % 2047 = 0 + r.val % 2047; omega
    | ⟨2, _⟩ => by show k.val = 0 + k.val; omega)

/-- The activations the region is handed: the argument with each batch's last position dropped, flattened. -/
theorem V_h (c : Dev nD) : (V m c main_v1 : S4094x4096.Idx → Elt Ideal .f32)
    = shapeCast S4094x4096 (extractStridedSlice S2x2047x4096 ![0, 0, 0] (m ((c : Thread nD τ).loc main_arg0))
        slices_S2x2048x4096_S2x2047x4096_0_0_0) shapeCasts_S2x2047x4096_S4094x4096 := by
  show StableHlo.after hostOps0 (fun b => m (c, b)) (Proc.devRef .tc main_v1) = _
  after_results; rfl

/-- The vocabulary matrix the region is handed: the argument, its change of format the identity on extended reals. -/
theorem V_w (c : Dev nD) (i : S32000x4096.Idx) : V m c main_v2 i = m ((c : Thread nD τ).loc main_arg2) i := by
  refine congrFun (?_ : V m c main_v2 = fun i => m ((c : Thread nD τ).loc main_arg2) i) i
  show StableHlo.after hostOps0 (fun b => m (c, b)) (Proc.devRef .tc main_v2) = _
  after_results; rfl

/-! ## The schedule, decided over the grid -/

theorem idx_facts : ∀ t : Fin cfg0.N,
    win0_3.index t (0 : Fin 2) = t.val % 16 ∧ win0_3.index t (1 : Fin 2) = t.val / 16
    ∧ win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 1) = 0 :=
  (by decide +kernel : ∀ t : Fin grid0.N,
    win0_3.index t (0 : Fin 2) = t.val % 16 ∧ win0_3.index t (1 : Fin 2) = t.val / 16
    ∧ win0_0.index t (0 : Fin 2) = t.val % 16 ∧ win0_0.index t (1 : Fin 2) = 0
    ∧ win0_1.index t (0 : Fin 2) = t.val / 16 ∧ win0_1.index t (1 : Fin 2) = 0
    ∧ win0_2.index t (0 : Fin 1) = 0)

/-- The last row block of each sweep (i = 15) has 254 rows inside the array, the others 256. -/
theorem xsize_fact : ∀ t : Fin cfg0.N, win0_3.xsize (grid0.coords t) (0 : Fin 2) = 256 - 2 * (t.val % 16 / 15) :=
  (by decide +kernel : ∀ t : Fin grid0.N, win0_3.xsize (grid0.coords t) (0 : Fin 2) = 256 - 2 * (t.val % 16 / 15))

/-! ## Each input block, read where the result's rectangle says -/

/-- Row p (inside the array) of the activation block at point t is row 256 i + p of the activations handed to the region. -/
theorem hblk_apply (c : Dev nD) (t : Fin cfg0.N) (p : Fin 256) (k : Fin 4096)
    (hp : p.val < win0_0.xsize (grid0.coords t) (0 : Fin 2)) (R : Fin 4094) (hR : R.val = t.val % 16 * 256 + p.val) :
    hblk m c t (ix2 p k) = m ((c : Thread nD τ).loc main_arg0) (ix3 (batchOf R) (posOf R) k) := by
  obtain ⟨-, -, g0, g1, -⟩ := idx_facts t
  have hm : win0_0.moved (grid0.coords t) (ix2 p k) = true :=
    (win0_0.moved_iff _ _).mpr fun a => by
      match a with
      | ⟨0, _⟩ => exact hp
      | ⟨1, _⟩ => show k.val < win0_0.xsize (grid0.coords t) (1 : Fin 2); rw [(clip_facts t).2.1]; exact k.isLt
  unfold hblk Window.fill
  rw [dif_pos hm]
  change V m c main_v1 ((win0_0.blk t).view.emb _) = _
  rw [V_h, ← shift_apply (m ((c : Thread nD τ).loc main_arg0)) slices_S2x2048x4096_S2x2047x4096_0_0_0 shapeCasts_S2x2047x4096_S4094x4096 R k]
  refine congrArg _ (funext fun a => Fin.ext ?_)
  match a with
  | ⟨0, _⟩ => show win0_0.index t (0 : Fin 2) * 256 + 1 * p.val = R.val; omega
  | ⟨1, _⟩ => show win0_0.index t (1 : Fin 2) * 4096 + 1 * k.val = k.val; omega

/-- The norm-weight block at any point is the norm weight. -/
theorem gblk_apply (c : Dev nD) (t : Fin cfg0.N) (k : Fin 4096) :
    (iblk m c 2 t : S4096.Idx → Elt Ideal .f32) (ix1 k) = m ((c : Thread nD τ).loc main_arg1) (ix1 k) := by
  obtain ⟨-, -, -, -, -, -, g2⟩ := idx_facts t
  show V m c main_arg1 ((win0_2.blk t).view.emb (ix1 k)) = _
  rw [V_main_arg1]
  refine congrArg _ (funext fun a => Fin.ext ?_)
  match a with
  | ⟨0, _⟩ => show win0_2.index t (0 : Fin 1) * 4096 + 1 * k.val = k.val; omega

/-- Row q of the vocabulary block at point t is row 1280 j + q of the vocabulary matrix. -/
theorem wblk_apply (c : Dev nD) (t : Fin cfg0.N) (q : Fin 1280) (k : Fin 4096) (Q : Fin 32000) (hQ : Q.val = t.val / 16 * 1280 + q.val) :
    (iblk m c 1 t : S1280x4096.Idx → Elt Ideal .bf16) (ix2 q k) = m ((c : Thread nD τ).loc main_arg2) (ix2 Q k) := by
  obtain ⟨-, -, -, -, g0, g1, -⟩ := idx_facts t
  show V m c main_v2 ((win0_1.blk t).view.emb (ix2 q k)) = _
  rw [V_w]
  refine congrArg _ (funext fun a => Fin.ext ?_)
  match a with
  | ⟨0, _⟩ => show win0_1.index t (0 : Fin 2) * 1280 + 1 * q.val = Q.val; omega
  | ⟨1, _⟩ => show win0_1.index t (1 : Fin 2) * 4096 + 1 * k.val = k.val; omega

/-! ## What each point writes back, the cover, the array -/

/-- The specification's logits of the argument arrays. -/
abbrev G (c : Dev nD) : S4094x32000.Idx → Elt Ideal .f32 :=
  logits (m ((c : Thread nD τ).loc main_arg0)) (m ((c : Thread nD τ).loc main_arg1)) (m ((c : Thread nD τ).loc main_arg2))

/-- What point t writes back is block t of the logits. -/
theorem flushed_eq (c : Dev nD) (t : Fin cfg0.N) :
    (dats m 0 c).flushed 3 t = ((cfg0.win 3).blk t).view.read (Elt Ideal) (G m c) := by
  show (cfg0.win 3).cut (grid0.coords t) ((dats m 0 c).after 3 t) = _
  rw [after_3]
  funext j
  obtain ⟨g30, g31, -⟩ := idx_facts t
  have hj0 : (j 0).val < win0_3.xsize (grid0.coords t) (0 : Fin 2) := (j 0).isLt
  have hj1 : (j 1).val < win0_3.xsize (grid0.coords t) (1 : Fin 2) := (j 1).isLt
  have hj0' : (j 0).val < 256 := lt_of_lt_of_le hj0 (win0_3.xsize_le _ _)
  have hj1' : (j 1).val < 1280 := lt_of_lt_of_le hj1 (win0_3.xsize_le _ _)
  have e : win0_3.xinj (grid0.coords t) j = ix2 (⟨(j 0).val, hj0'⟩ : Fin 256) (⟨(j 1).val, hj1'⟩ : Fin 1280) :=
    funext fun a => Fin.ext (by match a with | ⟨0, _⟩ => rfl | ⟨1, _⟩ => rfl)
  show outBlk _ _ _ (win0_3.xinj (grid0.coords t) j) = G m c ((win0_3.blk t).view.emb j)
  rw [e, outBlk_apply]
  have hE0 : ((win0_3.blk t).view.emb j (0 : Fin 2)).val = t.val % 16 * 256 + (j 0).val := by
    show win0_3.index t (0 : Fin 2) * 256 + 1 * (j 0).val = _; omega
  have hE1 : ((win0_3.blk t).view.emb j (1 : Fin 2)).val = t.val / 16 * 1280 + (j 1).val := by
    show win0_3.index t (1 : Fin 2) * 1280 + 1 * (j 1).val = _; omega
  have h1 : (fun k : Fin 4096 => hblk m c t (ix2 (⟨(j 0).val, hj0'⟩ : Fin 256) k))
      = fun k => m ((c : Thread nD τ).loc main_arg0) (ix3 (batchOf ((win0_3.blk t).view.emb j 0)) (posOf ((win0_3.blk t).view.emb j 0)) k) :=
    funext fun k => hblk_apply m c t _ k (by rw [← (clip_facts t).1]; exact hj0) _ hE0
  have h2 : (fun k : Fin 4096 => (iblk m c 2 t : S4096.Idx → Elt Ideal .f32) (ix1 k))
      = fun k => m ((c : Thread nD τ).loc main_arg1) (ix1 k) := funext fun k => gblk_apply m c t k
  have h3 : (fun k : Fin 4096 => (iblk m c 1 t : S1280x4096.Idx → Elt Ideal .bf16) (ix2 (⟨(j 1).val, hj1'⟩ : Fin 1280) k))
      = fun k => m ((c : Thread nD τ).loc main_arg2) (ix2 ((win0_3.blk t).view.emb j 1) k) :=
    funext fun k => wblk_apply m c t _ k _ hE1
  refine (congrArg (fun x => rowLogit x _ _) h1).trans ?_
  refine (congrArg (fun g => rowLogit _ g _) h2).trans ?_
  exact congrArg (fun w => rowLogit _ _ w) h3

/-- An index of the array is in point t's block iff each coordinate is in the block's range, cut at the array's end. -/
theorem mem_blk (t : Fin cfg0.N) (i : S4094x32000.Idx) :
    i ∈ ((cfg0.win 3).blk t).view.set ↔ ∀ a : Fin 2, win0_3.index t a * S256x1280.size a ≤ (i a).val
      ∧ (i a).val < win0_3.index t a * S256x1280.size a + win0_3.xsize (grid0.coords t) a := by
  show i ∈ ((View.whole main_v3).slice (win0_3.rect t)).set ↔ _
  rw [View.set_slice_whole, Rect.mem_set_unit]
  exact Iff.rfl

/-- Every entry of the result is in the block of the point handling its row block and its column block. -/
theorem cover (i : S4094x32000.Idx) : ∃ t : Fin cfg0.N, (cfg0.win 3).flush t = true ∧ i ∈ ((cfg0.win 3).blk t).view.set := by
  have hi0 : (i 0).val < 4094 := (i 0).isLt
  have hi1 : (i 1).val < 32000 := (i 1).isLt
  have hN : cfg0.N = 400 := N_0
  let t : Fin cfg0.N := ⟨(i 1).val / 1280 * 16 + (i 0).val / 256, by rw [hN]; omega⟩
  have htv : t.val = (i 1).val / 1280 * 16 + (i 0).val / 256 := rfl
  obtain ⟨g30, g31, -⟩ := idx_facts t
  have gx := xsize_fact t
  have gx1 := (clip_facts t).2.2
  refine ⟨t, flush0_3 t, (mem_blk t i).mpr fun a => ?_⟩
  match a with
  | ⟨0, _⟩ =>
    show win0_3.index t (0 : Fin 2) * 256 ≤ (i 0).val ∧ (i 0).val < win0_3.index t (0 : Fin 2) * 256 + win0_3.xsize (grid0.coords t) (0 : Fin 2)
    rw [gx, g30]
    omega
  | ⟨1, _⟩ =>
    show win0_3.index t (1 : Fin 2) * 1280 ≤ (i 1).val ∧ (i 1).val < win0_3.index t (1 : Fin 2) * 1280 + win0_3.xsize (grid0.coords t) (1 : Fin 2)
    rw [gx1, g31]
    omega

/-- The result array after the run: the logits. -/
theorem final (c : Dev nD) : (dats m 0 c).arrAt 3 cfg0.N = G m c :=
  (dats m 0 c).arrAt_eq_of_cover 3 (G m c) (fun t _ => flushed_eq m c t) cover

/-! ## The host lines after the region: the labels with each batch's first position dropped, flattened -/

theorem tail_labels (c : Dev nD) :
    Pipeline.afterTail₀ cfgs (dats m) 0 (V0 m) [hostOps1] c main_v5
      = shapeCast S4094 (extractStridedSlice S2x2047 ![0, 1] (m ((c : Thread nD τ).loc main_arg4)) slices_S2x2048_S2x2047_0_1) shapeCasts_S2x2047_S4094 := by
  unfold Pipeline.afterTail₀
  show StableHlo.after hostOps1 _ (Proc.devRef .tc main_v5) = _
  after_results
  rw [Pipeline.withArrays_of_ne _ c (V0 m c) _ main_arg4 (by exact (by decide : ∀ w, Pipeline.arrRef spec0 w ≠ main_arg4))]
  exact congrArg (fun y => shapeCast S4094 (extractStridedSlice S2x2047 ![0, 1] y slices_S2x2048_S2x2047_0_1) shapeCasts_S2x2047_S4094) (V_main_arg4 m c)

/-! ## The run, read -/

/-- Every weakly fair execution of @main terminates with the first result at the logits of the arguments, the second at
    the shifted labels, and the arguments unchanged. -/
theorem run : θ_run defs (onTc (τ := τ) (main (F := Ideal))) ⟨m, fun _ => 0, ρ⟩ fun r => ∀ c : Dev nD,
      r.2.mem ((c.tc : Thread nD τ).loc main_v3) = G m c
      ∧ r.2.mem ((c.tc : Thread nD τ).loc main_v5)
          = shapeCast S4094 (extractStridedSlice S2x2047 ![0, 1] (m ((c : Thread nD τ).loc main_arg4)) slices_S2x2048_S2x2047_0_1) shapeCasts_S2x2047_S4094
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 3).trans (final m c),
     ((h c).2 main_v5 (Pipeline.mem_restRefs_of main_v5 (by decide) (by decide))).trans (tail_labels m c),
     ((h c).2 main_arg0 (Pipeline.mem_restRefs_of main_arg0 (by decide) (by decide))).trans (W_main_arg0 m (dats m) c),
     ((h c).1 2).trans (((dats m 0 c).arrAt_in 2 rfl _).trans ((A_eq m c 2).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.Final

end
-- ==== Proof.RefLogits.lean ====
/-
  The reference program's first result is the specification's logits.

  The reference squares the activations, sums each row of 4096 from zero, divides by 4096, adds ε, takes the
  reciprocal square root, multiplies the row by that scale and by the norm weight, contracts with each row of the
  vocabulary matrix, drops the last position of each batch and flattens (batch, position) into one row axis.
  Entry (r, v) of the result is therefore
    Σₖ (x[b, s, k] · (Σₖ' x[b, s, k']² / 4096 + ε)^(-1/2) · g[k]) · W[v, k],   b = r / 2047, s = r % 2047,
  which is the specification's logit of row (b, s) against vocabulary row v, term by term.
  The only arithmetic used is 0 + a = a (the sum starts from the zero word) and r = (r / 2047) · 2047 + r % 2047.
-/
import proofs.«124126_j42468636623331_2_alg».proof.Proof.Gen.ReferenceIdeal.Read
import proofs.«124126_j42468636623331_2_alg».proof.Proof.Spec

noncomputable section

namespace Cert.ReferenceIdeal.RefValue

open Cert.ReferenceIdeal Cert.ReferenceIdeal.Gen Cert.ReferenceIdeal.Read Cert.Logits
open Idealize.ShloMosaic Idealize.ShloMosaic.ValueIdx Idealize.ShloMosaic.StableHlo
open scoped BigOperators

/-- The scale of row (b, s): the reference's reciprocal root of (sum of squares from zero) / 4096 + ε, read at
    (b, s, 0), is the specification's scale of the row x[b, s, ·]. -/
theorem ref_scale (x0 : (⟨S2x2048x4096, .f32⟩ : BufTy).Contents (Elt Ideal)) (b : Fin 2) (s : Fin 2048) :
    val_main_v7 (F := Ideal) x0 (ix3 b s (0 : Fin 1)) = rowScale (fun k => x0 (ix3 b s k)) := by
  have e2 : idx_main_v2 (ix3 b s (0 : Fin 1)) = ix2 b s :=
    funext fun a => Fin.ext (by match a with | ⟨0, _⟩ => rfl | ⟨1, _⟩ => rfl)
  have e1 : ∀ k : Fin 4096, idx_main_v1 (ix2 b s) k = ix3 b s k := fun k =>
    funext fun a => Fin.ext (by match a with | ⟨0, _⟩ => rfl | ⟨1, _⟩ => rfl | ⟨2, _⟩ => rfl)
  rw [val_main_v7_apply, val_main_v6_apply, val_main_v4_apply, val_main_v2_apply, val_main_v3_apply,
    val_main_v5_apply, val_main_cst_0_apply, val_main_cst_1_apply, e2, val_main_v1_apply, val_main_cst_apply]
  simp only [e1, val_main_v0_apply, Ideal.mulf_def, Ideal.addf_def, Ideal.hostDivf_def,
    Ideal.hostUnary_rsqrt_def, Ideal.ofBits_def, Ideal.ofBits_zero_f32, zero_add]
  rfl

/-- The normalised, weighted operand at (b, s, k): x[b, s, k] times the scale of row (b, s) times g[k]. -/
theorem ref_operand (x0 : (⟨S2x2048x4096, .f32⟩ : BufTy).Contents (Elt Ideal))
    (x1 : (⟨S4096, .f32⟩ : BufTy).Contents (Elt Ideal)) (b : Fin 2) (s : Fin 2048) (k : Fin 4096) :
    val_main_v12 (F := Ideal) x0 x1 (ix3 b s k)
      = x0 (ix3 b s k) * rowScale (fun k' => x0 (ix3 b s k')) * x1 (ix1 k) := by
  have e8 : idx_main_v8 (ix3 b s k) = ix3 b s (0 : Fin 1) :=
    funext fun a => Fin.ext (by match a with | ⟨0, _⟩ => rfl | ⟨1, _⟩ => rfl | ⟨2, _⟩ => rfl)
  have e10 : idx_main_v10 (idx_main_v11 (ix3 b s k)) = ix1 k :=
    funext fun a => Fin.ext (by match a with | ⟨0, _⟩ => rfl)
  rw [val_main_v12_apply, val_main_v9_apply, val_main_v8_apply, val_main_v11_apply, val_main_v10_apply,
    e8, e10, ref_scale]
  simp only [Ideal.mulf_def]

/-- The contraction at (b, s, v): the sum over k of the normalised, weighted operand times W[v, k] is the
    specification's logit of row x[b, s, ·] against vocabulary row W[v, ·]. -/
theorem ref_dot (x0 : (⟨S2x2048x4096, .f32⟩ : BufTy).Contents (Elt Ideal))
    (x1 : (⟨S4096, .f32⟩ : BufTy).Contents (Elt Ideal)) (x2 : (⟨S32000x4096, .f32⟩ : BufTy).Contents (Elt Ideal))
    (b : Fin 2) (s : Fin 2048) (v : Fin 32000) :
    val_main_v13 (F := Ideal) x0 x1 x2 (ix3 b s v)
      = rowLogit (fun k => x0 (ix3 b s k)) (fun k => x1 (ix1 k)) (fun k => x2 (ix2 v k)) := by
  have el : ∀ k : Fin 4096, lidx_main_v13 (ix3 b s v) k = ix3 b s k := fun k =>
    funext fun a => Fin.ext (by match a with | ⟨0, _⟩ => rfl | ⟨1, _⟩ => rfl | ⟨2, _⟩ => rfl)
  have er : ∀ k : Fin 4096, ridx_main_v13 (ix3 b s v) k = ix2 v k := fun k =>
    funext fun a => Fin.ext (by match a with | ⟨0, _⟩ => rfl | ⟨1, _⟩ => rfl)
  rw [val_main_v13_apply]
  unfold rowLogit
  refine Finset.sum_congr rfl fun k _ => ?_
  rw [el, er, ref_operand]

/-- Dropping the last position of each batch and flattening: result row r reads position r % 2047 of batch
    r / 2047, because r = (r / 2047) · 2047 + r % 2047. -/
theorem ref_row_index (r : Fin 4094) (v : Fin 32000) :
    idx_main_v14 (idx_main_v15 (ix2 r v)) = ix3 (batchOf r) (posOf r) v := by
  have hr : r.val < 4094 := r.isLt
  have hv : v.val < 32000 := v.isLt
  refine funext fun a => Fin.ext ?_
  match a with
  | ⟨0, _⟩ => show (r.val * 32000 + v.val) / 65504000 = r.val / 2047; omega
  | ⟨1, _⟩ => show (r.val * 32000 + v.val) / 32000 % 2047 = r.val % 2047; omega
  | ⟨2, _⟩ => show (r.val * 32000 + v.val) % 32000 = v.val; omega

/-- The reference's first result is the specification's logits: entry (r, v) is the logit of activation row
    (batch r / 2047, position r % 2047), scaled by its reciprocal root mean square and weighted by the norm
    weight, against vocabulary row v. -/
theorem ref_logits (x0 : (⟨S2x2048x4096, .f32⟩ : BufTy).Contents (Elt Ideal))
    (x1 : (⟨S4096, .f32⟩ : BufTy).Contents (Elt Ideal)) (x2 : (⟨S32000x4096, .f32⟩ : BufTy).Contents (Elt Ideal)) :
    Cert.ReferenceIdeal.Read.val_main_v15 (F := Ideal) x0 x1 x2 = Cert.Logits.logits x0 x1 x2 := by
  funext j
  obtain ⟨r, v, rfl⟩ : ∃ (r : Fin 4094) (v : Fin 32000), j = ValueIdx.ix2 r v := ⟨j 0, j 1, ValueIdx.eq_ix2 j⟩
  rw [val_main_v15_apply, val_main_v14_apply, ref_row_index, ref_dot]
  rfl

end Cert.ReferenceIdeal.RefValue

end
-- ==== Proof.lean ====
/-
  The kernel computes, block by block, the logits of RMS-normalised activations against a vocabulary matrix, on the
  activations with each batch's last position dropped; the reference normalises, contracts, and then drops that
  position. On extended reals a change of float format is the identity and both are, entry by entry,

    out[r, v] = Σₖ (x[b, s, k] · (Σₖ' x[b, s, k']² / 4096 + ε)^(-1/2) · g[k]) · W[v, k],   b = r / 2047, s = r % 2047,

  with the same ε and the same 4096 on both sides: the same finite sum of the same terms, so no finiteness of the
  inputs is used. The second result, the labels with each batch's first position dropped, is the same slice and
  flattening of the same argument in both programs.

  The 4094 result rows are handled in 16 row blocks of 256; the last has 254 rows inside the array, and what its
  staging buffers hold on the other two rows is never named: a row of logits reads its own activation row only, so the
  254 rows written back do not depend on it. For the word-level program nothing is claimed of the result's contents
  (a row sum of words is not known to be row-local there), and its frame forgets the result's window.
-/
import proofs.«124126_j42468636623331_2_alg».proof.Defs
import proofs.«124126_j42468636623331_2_alg».proof.Proof.Gen.Kernel
import proofs.«124126_j42468636623331_2_alg».proof.Proof.Gen.Kernel.Skeleton
import proofs.«124126_j42468636623331_2_alg».proof.Proof.Gen.Kernel.Launch
import proofs.«124126_j42468636623331_2_alg».proof.Proof.Gen.Kernel.Points
import proofs.«124126_j42468636623331_2_alg».proof.Proof.Gen.Kernel.Frame
import proofs.«124126_j42468636623331_2_alg».proof.Proof.Gen.KernelIdeal
import proofs.«124126_j42468636623331_2_alg».proof.Proof.Gen.KernelIdeal.Skeleton
import proofs.«124126_j42468636623331_2_alg».proof.Proof.Gen.KernelIdeal.Launch
import proofs.«124126_j42468636623331_2_alg».proof.Proof.Gen.KernelIdeal.Points
import proofs.«124126_j42468636623331_2_alg».proof.Proof.Gen.KernelIdeal.Frame
import proofs.«124126_j42468636623331_2_alg».proof.Proof.Gen.ReferenceIdeal
import proofs.«124126_j42468636623331_2_alg».proof.Proof.Gen.ReferenceIdeal.Run
import proofs.«124126_j42468636623331_2_alg».proof.Proof.Gen.ReferenceIdeal.Read
import proofs.«124126_j42468636623331_2_alg».proof.Proof.Gen.Pre_finite_inputs
import proofs.«124126_j42468636623331_2_alg».proof.Proof.BodyBits
import proofs.«124126_j42468636623331_2_alg».proof.Proof.Final
import proofs.«124126_j42468636623331_2_alg».proof.Proof.RefLogits
import Idealize.ShloMosaic.Adequacy
import Idealize.ShloMosaic.Init

noncomputable section

namespace Cert.Proof

open Idealize.ShloMosaic Idealize.SL.Sem

/-- The word-level kernel runs to the end, faults nowhere and leaves its arguments as launched. -/
theorem frame_kernel : Cert.frame_Kernel := fun m ρ _ => Cert.Kernel.Body.frame m ρ

/-- So does the kernel read on extended reals. -/
theorem frame_kernelIdeal : Cert.frame_KernelIdeal := fun m ρ _ => Cert.KernelIdeal.Body.frame m ρ

/-- The reference is a straight line of host operations: its run, with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with the first result at the specification's logits of
    the arguments and the second at the shifted labels. -/
theorem algebraic : Cert.algebraic_KernelIdeal_ReferenceIdeal := by
  intro m ρ m' ρ' _ hagree
  refine ⟨_, _, Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v15_eq, Cert.ReferenceIdeal.RefValue.ref_logits,
      (hagree c).1, (hagree c).2.1, (hagree c).2.2.1]
  · rw [(hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
